-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x32 : Shape := ⟨2, ![11008, 32]⟩
abbrev S11008 : Shape := ⟨1, ![11008]⟩
abbrev S11008x4096 : Shape := ⟨2, ![11008, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008x32 : S_.BroadcastsInDim S11008x32 (![] : Fin 0 → Fin S11008x32.rank)
  reducesTo_S11008x32_S_d0_1 : S11008x32.ReducesTo [0, 1] S_
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S4x2048x4096 .f32) (main_arg1 : FVec F S11008x32 .f32) (main_arg2 : FVec F S11008 .f32) (main_arg3 : IVec S11008x4096 32) (main_arg4 : IVec S11008x32 32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008x32 .f32 := Host.absf main_arg1
  let main_cst_0 : FVec F S_ .f32 := constant S_ .f32 0x7F800000#32
  let main_v5 : FVec F S11008x32 .f32 := broadcastInDim S11008x32 ![] bcast_S_S11008x32 main_cst_0
  let main_v6 : IVec S11008x32 1 := cmpf .olt main_v4 main_v5
  let main_c_1 : IVec S_ 1 := constantI S_ 1 1#1
  let main_v7 : IVec S_ 1 := (fun x v => Host.reduce IntOp.andi x v reducesTo_S11008x32_S_d0_1 h_S_) main_v6 main_c_1
  let main_v8 : IVec S_ 1 := andi main_v3 main_v7
  let main_v9 : FVec F S11008 .f32 := Host.absf main_arg2
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S4x2048x4096 : Shape := ⟨3, ![4, 2048, 4096]⟩
abbrev S11008x32 : Shape := ⟨2, ![11008, 32]⟩
abbrev S11008 : Shape := ⟨1, ![11008]⟩
abbrev S11008x4096 : Shape := ⟨2, ![11008, 4096]⟩
abbrev S8192x4096 : Shape := ⟨2, ![8192, 4096]⟩
abbrev S8192x11008 : Shape := ⟨2, ![8192, 11008]⟩
abbrev S512x4096 : Shape := ⟨2, ![512, 4096]⟩
abbrev S256x4096 : Shape := ⟨2, ![256, 4096]⟩
abbrev S256x32 : Shape := ⟨2, ![256, 32]⟩
abbrev S256 : Shape := ⟨1, ![256]⟩
abbrev S512x256 : Shape := ⟨2, ![512, 256]⟩
abbrev S256x32x128 : Shape := ⟨3, ![256, 32, 128]⟩
abbrev S256x32x1 : Shape := ⟨3, ![256, 32, 1]⟩
abbrev S1x256 : Shape := ⟨2, ![1, 256]⟩
abbrev S4x2048x11008 : Shape := ⟨3, ![4, 2048, 11008]⟩

abbrev nBuf : Space → Nat
  | .hbm => 8
  | .vmem => 12
  | .smem => 0
  | _ => 0

abbrev bufTy : (tb : Table) → Fin (tcTables nBuf tb) → BufTy
  | .hbm, ⟨0, _⟩ => ⟨S4x2048x4096, .f32⟩
  | .hbm, ⟨1, _⟩ => ⟨S11008x32, .f32⟩
  | .hbm, ⟨2, _⟩ => ⟨S11008, .f32⟩
  | .hbm, ⟨3, _⟩ => ⟨S11008x4096, .i32⟩
  | .hbm, ⟨4, _⟩ => ⟨S11008x32, .i32⟩
  | .hbm, ⟨5, _⟩ => ⟨S8192x4096, .f32⟩
  | .hbm, ⟨6, _⟩ => ⟨S8192x11008, .f32⟩
  | .hbm, ⟨7, _⟩ => ⟨S4x2048x11008, .f32⟩
  | .local _ .vmem, ⟨0, _⟩ => ⟨S512x4096, .f32⟩
  | .local _ .vmem, ⟨1, _⟩ => ⟨S512x4096, .f32⟩
  | .local _ .vmem, ⟨2, _⟩ => ⟨S256x4096, .i32⟩
  | .local _ .vmem, ⟨3, _⟩ => ⟨S256x4096, .i32⟩
  | .local _ .vmem, ⟨4, _⟩ => ⟨S256x32, .f32⟩
  | .local _ .vmem, ⟨5, _⟩ => ⟨S256x32, .f32⟩
  | .local _ .vmem, ⟨6, _⟩ => ⟨S256x32, .i32⟩
  | .local _ .vmem, ⟨7, _⟩ => ⟨S256x32, .i32⟩
  | .local _ .vmem, ⟨8, _⟩ => ⟨S256, .f32⟩
  | .local _ .vmem, ⟨9, _⟩ => ⟨S256, .f32⟩
  | .local _ .vmem, ⟨10, _⟩ => ⟨S512x256, .f32⟩
  | .local _ .vmem, ⟨11, _⟩ => ⟨S512x256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x32 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S4x2048x4096_S8192x4096 : S4x2048x4096.ShapeCasts S8192x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S256x4096_S256x4096_0_0 : ∀ a, (![0, 0] : Fin 2 → Nat) a + S256x4096.size a ≤ S256x4096.size a
  h_S256x4096 : 0 < S256x4096.numel
  shapeCasts_S256x4096_S256x32x128 : S256x4096.ShapeCasts S256x32x128
  inb_S256x32_S256x32_0_0 : ∀ a, (![0, 0] : Fin 2 → Nat) a + S256x32.size a ≤ S256x32.size a
  h_S256x32 : 0 < S256x32.numel
  shapeCasts_S256x32_S256x32x1 : S256x32.ShapeCasts S256x32x1
  broadcasts_S256x32x1_S256x32x128 : S256x32x1.Broadcasts S256x32x128
  shapeCasts_S256x32x128_S256x4096 : S256x32x128.ShapeCasts S256x4096
  bitsLt_bf16_f32 : FTy.bits .bf16 < FTy.bits .f32
  inb_S256_S256_0 : ∀ a, (![0] : Fin 1 → Nat) a + S256.size a ≤ S256.size a
  h_S256 : 0 < S256.numel
  shapeCasts_S256_S1x256 : S256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  shapeCasts_S8192x11008_S4x2048x11008 : S8192x11008.ShapeCasts S4x2048x11008
  dot_S512x4096_S256x4096_S512x256_1_1_0_0_n_n_wf : DotDims.WF S512x4096 S256x4096 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .i32 = 32 ∨ (Rect.block (s := S11008x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x32.size a ≤ S11008x32.size a
  hwx0_2 : ∀ i : grid0.Coords, EltTy.bits .f32 = 32 ∨ (Rect.block (s := S11008x32) S256x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x32.size a ≤ S11008x32.size a
  hwx0_3 : ∀ i : grid0.Coords, EltTy.bits .i32 = 32 ∨ (Rect.block (s := S11008x32) S256x32.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S11008.size a
  hwx0_4 : ∀ i : grid0.Coords, EltTy.bits .f32 = 32 ∨ (Rect.block (s := S11008) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S8192x11008.size a
  hwx0_5 : ∀ i : grid0.Coords, EltTy.bits .f32 = 32 ∨ (Rect.block (s := S8192x11008) S512x256.size (cc0_transform_5 i) (hinb0_5 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S512x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S11008x32 : Shape := ⟨2, ![11008, 32]⟩
abbrev S11008 : Shape := ⟨1, ![11008]⟩
abbrev S11008x4096 : Shape := ⟨2, ![11008, 4096]⟩
abbrev S11008x32x128 : Shape := ⟨3, ![11008, 32, 128]⟩
abbrev S11008x32x1 : Shape := ⟨3, ![11008, 32, 1]⟩
abbrev S4x2048x11008 : Shape := ⟨3, ![4, 2048, 11008]⟩
abbrev S1x1x11008 : Shape := ⟨3, ![1, 1, 11008]⟩

abbrev nBuf : Space → Nat
  | .hbm => 19
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x32, .f32⟩
  | .hbm, ⟨2, _⟩ => ⟨S11008, .f32⟩
  | .hbm, ⟨3, _⟩ => ⟨S11008x4096, .i32⟩
  | .hbm, ⟨4, _⟩ => ⟨S11008x32, .i32⟩
  | .hbm, ⟨5, _⟩ => ⟨S11008x32x128, .i32⟩
  | .hbm, ⟨6, _⟩ => ⟨S11008x32x128, .f32⟩
  | .hbm, ⟨7, _⟩ => ⟨S11008x32, .f32⟩
  | .hbm, ⟨8, _⟩ => ⟨S11008x32x1, .f32⟩
  | .hbm, ⟨9, _⟩ => ⟨S11008x32x1, .f32⟩
  | .hbm, ⟨10, _⟩ => ⟨S11008x32x128, .f32⟩
  | .hbm, ⟨11, _⟩ => ⟨S11008x32x128, .f32⟩
  | .hbm, ⟨12, _⟩ => ⟨S11008x32x128, .f32⟩
  | .hbm, ⟨13, _⟩ => ⟨S11008x32x128, .f32⟩
  | .hbm, ⟨14, _⟩ => ⟨S11008x4096, .f32⟩
  | .hbm, ⟨15, _⟩ => ⟨S4x2048x11008, .f32⟩
  | .hbm, ⟨16, _⟩ => ⟨S1x1x11008, .f32⟩
  | .hbm, ⟨17, _⟩ => ⟨S4x2048x11008, .f32⟩
  | .hbm, ⟨18, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  shapeCasts_S11008x4096_S11008x32x128 : S11008x4096.ShapeCasts S11008x32x128
  bcast_S11008x32_S11008x32x1_0_1 : S11008x32.BroadcastsInDim S11008x32x1 (![0, 1] : Fin 2 → Fin S11008x32x1.rank)
  bcast_S11008x32x1_S11008x32x128_0_1_2 : S11008x32x1.BroadcastsInDim S11008x32x128 (![0, 1, 2] : Fin 3 → Fin S11008x32x128.rank)
  shapeCasts_S11008x32x128_S11008x4096 : S11008x32x128.ShapeCasts S11008x4096
  bcast_S11008_S1x1x11008_2 : S11008.BroadcastsInDim S1x1x11008 (![2] : Fin 1 → Fin S1x1x11008.rank)
  bcast_S1x1x11008_S4x2048x11008_0_1_2 : S1x1x11008.BroadcastsInDim S4x2048x11008 (![0, 1, 2] : Fin 3 → Fin S4x2048x11008.rank)
  dot_S4x2048x4096_S11008x4096_S4x2048x11008_2_1_01_0_n_n_wf : DotDims.WF S4x2048x4096 S11008x4096 S4x2048x11008 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf

class Facts : Prop extends Facts₀ where

variable [Facts]
-- ==== Proof.Spec.lean ====
/-
  The quantized linear layer as ONE function of its five arrays, entry by entry.

  Input features come in 32 groups of 128 consecutive features.  Output feature `o` has, per group `g`, a scale
  `sc[o, g]` and an integer zero point `z[o, g]`, and per input feature `k` an integer code `q[o, k]`; its weight at
  `k` is `sc[o, k / 128] · (q[o, k] − z[o, k / 128])`, both integers read as reals.  The layer's value at row `r` and
  output feature `o` is `Σ_k x[r, k] · weight[o, k] + bias[o]`, a sum over the 4096 input features.

  Stated once for rows of a matrix (any number of rows and of output features: the whole [8192, 11008] product and a
  [512, 256] tile of it are the same formula over different arrays) and once for the [4, 2048, 4096] batch, whose rows
  in row-major order are the matrix's.
-/
import Idealize.ShloMosaic.PureOps.Ideal
import Idealize.ShloMosaic.Lib.ValueIdx

noncomputable section

open Idealize.ShloMosaic Idealize.ShloMosaic.ValueIdx

namespace Cert.QLinear

/-- The quantization group of input feature `k`. -/
def grp (k : Fin 4096) : Fin 32 := ⟨k.val / 128, by have := k.isLt; omega⟩

/-- The position of input feature `k` inside its group. -/
def lane (k : Fin 4096) : Fin 128 := ⟨k.val % 128, Nat.mod_lt _ (by decide)⟩

/-- Group and position name the feature: `k = 128 · (k / 128) + k % 128`. -/
theorem grp_lane (k : Fin 4096) : (⟨(grp k).val * 128 + (lane k).val, by have := k.isLt; show k.val / 128 * 128 + k.val % 128 < 4096; omega⟩ : Fin 4096) = k :=
  Fin.ext (by show k.val / 128 * 128 + k.val % 128 = k.val; omega)

/-- One dequantized weight: the scale times (code − zero point), the two integers read as reals. -/
def deq (s : EReal) (code zp : BitVec 32) : EReal :=
  s * (FloatOps.sitofp (F := Ideal) .f32 code - FloatOps.sitofp (F := Ideal) .f32 zp)

/-- Entry `(r, o)` of `x · Wᵀ + bias` for a matrix `x` of `R` rows and `O` output features. -/
def rowAt {R O : Nat} (x : (⟨2, ![R, 4096]⟩ : Shape).Idx → EReal) (sc : (⟨2, ![O, 32]⟩ : Shape).Idx → EReal)
    (bias : (⟨1, ![O]⟩ : Shape).Idx → EReal) (q : (⟨2, ![O, 4096]⟩ : Shape).Idx → BitVec 32)
    (z : (⟨2, ![O, 32]⟩ : Shape).Idx → BitVec 32) (r : Fin R) (o : Fin O) : EReal :=
  (∑ k : Fin 4096, x (ix2 r k) * deq (sc (ix2 o (grp k))) (q (ix2 o k)) (z (ix2 o (grp k)))) + bias (ix1 o)

/-- The whole `[R, O]` product as an array. -/
def rows {R O : Nat} (x : (⟨2, ![R, 4096]⟩ : Shape).Idx → EReal) (sc : (⟨2, ![O, 32]⟩ : Shape).Idx → EReal)
    (bias : (⟨1, ![O]⟩ : Shape).Idx → EReal) (q : (⟨2, ![O, 4096]⟩ : Shape).Idx → BitVec 32)
    (z : (⟨2, ![O, 32]⟩ : Shape).Idx → BitVec 32) : (⟨2, ![R, O]⟩ : Shape).Idx → EReal :=
  fun i => rowAt x sc bias q z ⟨(i 0).val, idx2_lt0 i⟩ ⟨(i 1).val, idx2_lt1 i⟩

theorem rows_ix2 {R O : Nat} (x : (⟨2, ![R, 4096]⟩ : Shape).Idx → EReal) (sc : (⟨2, ![O, 32]⟩ : Shape).Idx → EReal)
    (bias : (⟨1, ![O]⟩ : Shape).Idx → EReal) (q : (⟨2, ![O, 4096]⟩ : Shape).Idx → BitVec 32)
    (z : (⟨2, ![O, 32]⟩ : Shape).Idx → BitVec 32) (r : Fin R) (o : Fin O) :
    rows x sc bias q z (ix2 r o) = rowAt x sc bias q z r o := rfl

/-- Entry `(b, s, o)` of the layer on the [4, 2048, 4096] batch. -/
def outAt (x : (⟨3, ![4, 2048, 4096]⟩ : Shape).Idx → EReal) (sc : (⟨2, ![11008, 32]⟩ : Shape).Idx → EReal)
    (bias : (⟨1, ![11008]⟩ : Shape).Idx → EReal) (q : (⟨2, ![11008, 4096]⟩ : Shape).Idx → BitVec 32)
    (z : (⟨2, ![11008, 32]⟩ : Shape).Idx → BitVec 32) (b : Fin 4) (s : Fin 2048) (o : Fin 11008) : EReal :=
  (∑ k : Fin 4096, x (ix3 b s k) * deq (sc (ix2 o (grp k))) (q (ix2 o k)) (z (ix2 o (grp k)))) + bias (ix1 o)

/-- The layer's [4, 2048, 11008] result as an array. -/
def out (x : (⟨3, ![4, 2048, 4096]⟩ : Shape).Idx → EReal) (sc : (⟨2, ![11008, 32]⟩ : Shape).Idx → EReal)
    (bias : (⟨1, ![11008]⟩ : Shape).Idx → EReal) (q : (⟨2, ![11008, 4096]⟩ : Shape).Idx → BitVec 32)
    (z : (⟨2, ![11008, 32]⟩ : Shape).Idx → BitVec 32) : (⟨3, ![4, 2048, 11008]⟩ : Shape).Idx → EReal :=
  fun i => outAt x sc bias q z ⟨(i 0).val, (i 0).isLt⟩ ⟨(i 1).val, (i 1).isLt⟩ ⟨(i 2).val, (i 2).isLt⟩

theorem out_ix3 (x : (⟨3, ![4, 2048, 4096]⟩ : Shape).Idx → EReal) (sc : (⟨2, ![11008, 32]⟩ : Shape).Idx → EReal)
    (bias : (⟨1, ![11008]⟩ : Shape).Idx → EReal) (q : (⟨2, ![11008, 4096]⟩ : Shape).Idx → BitVec 32)
    (z : (⟨2, ![11008, 32]⟩ : Shape).Idx → BitVec 32) (b : Fin 4) (s : Fin 2048) (o : Fin 11008) :
    out x sc bias q z (ix3 b s o) = outAt x sc bias q z b s o := rfl

/-- Row `2048 · b + s` of the matrix is row `(b, s)` of the batch: when the matrix holds the batch's rows in that
    order, the batch's entry `(b, s, o)` is the matrix product's entry `(2048 · b + s, o)`. -/
theorem outAt_eq_rowAt (x : (⟨3, ![4, 2048, 4096]⟩ : Shape).Idx → EReal) (x2 : (⟨2, ![8192, 4096]⟩ : Shape).Idx → EReal)
    (sc : (⟨2, ![11008, 32]⟩ : Shape).Idx → EReal) (bias : (⟨1, ![11008]⟩ : Shape).Idx → EReal)
    (q : (⟨2, ![11008, 4096]⟩ : Shape).Idx → BitVec 32) (z : (⟨2, ![11008, 32]⟩ : Shape).Idx → BitVec 32)
    (b : Fin 4) (s : Fin 2048) (o : Fin 11008) (r : Fin 8192)
    (hx : ∀ k : Fin 4096, x2 (ix2 r k) = x (ix3 b s k)) :
    rowAt x2 sc bias q z r o = outAt x sc bias q z b s o := by
  unfold rowAt outAt
  exact congrArg (· + bias (ix1 o)) (Finset.sum_congr rfl fun k _ => by rw [hx k])

end Cert.QLinear

end
-- ==== Proof.Layout.lean ====
/-
  The re-layings of the weight tile and of the bias row, read at an index.

  A [256, 4096] array viewed as [256, 32, 128] puts feature `k` of row `c` at `(c, k / 128, k % 128)`; a [256, 32]
  array viewed as [256, 32, 1] and spread along the last axis to [256, 32, 128] reads `(c, g)` at every `(c, g, l)`.
-/
import proofs.«136337_j15865609192074_1_alg».proof.Proof.Spec
import Idealize.ShloMosaic.Lib.Pipeline.Value
import Idealize.ShloMosaic.Lib.ValueIdx

noncomputable section

open Idealize.ShloMosaic Idealize.ShloMosaic.ValueIdx

namespace Cert.QLinear

variable {α : Type}

/-- [256, 32, 128] flattened to [256, 4096]: entry `(c, k)` is entry `(c, k / 128, k % 128)`. -/
theorem flatten_apply (v : (⟨3, ![256, 32, 128]⟩ : Shape).Idx → α)
    (h : (⟨3, ![256, 32, 128]⟩ : Shape).ShapeCasts ⟨2, ![256, 4096]⟩) (c : Fin 256) (k : Fin 4096) :
    shapeCast ⟨2, ![256, 4096]⟩ v h (ix2 c k) = v (ix3 c (grp k) (lane k)) :=
  shapeCast_apply v h _ _ (by
    rw [Shape.rowMajor_val_three, Shape.rowMajor_val_two]
    have hk := k.isLt
    show (c.val * 32 + k.val / 128) * 128 + k.val % 128 = c.val * 4096 + k.val
    omega)

/-- [256, 4096] split to [256, 32, 128]: entry `(c, g, l)` is entry `(c, 128 · g + l)`. -/
theorem split_apply (v : (⟨2, ![256, 4096]⟩ : Shape).Idx → α)
    (h : (⟨2, ![256, 4096]⟩ : Shape).ShapeCasts ⟨3, ![256, 32, 128]⟩) (c : Fin 256) (g : Fin 32) (l : Fin 128) :
    shapeCast ⟨3, ![256, 32, 128]⟩ v h (ix3 c g l)
      = v (ix2 c ⟨g.val * 128 + l.val, by have := g.isLt; have := l.isLt; omega⟩) :=
  shapeCast_apply v h _ _ (by
    rw [Shape.rowMajor_val_three, Shape.rowMajor_val_two]
    show c.val * 4096 + (g.val * 128 + l.val) = (c.val * 32 + g.val) * 128 + l.val
    omega)

/-- [256, 32] with a trailing unit axis added: entry `(c, g, 0)` is entry `(c, g)`. -/
theorem addUnit_apply (v : (⟨2, ![256, 32]⟩ : Shape).Idx → α)
    (h : (⟨2, ![256, 32]⟩ : Shape).ShapeCasts ⟨3, ![256, 32, 1]⟩) (c : Fin 256) (g : Fin 32) (u : Fin 1) :
    shapeCast ⟨3, ![256, 32, 1]⟩ v h (ix3 c g u) = v (ix2 c g) :=
  shapeCast_apply v h _ _ (by
    rw [Shape.rowMajor_val_three, Shape.rowMajor_val_two]
    have hu : u.val = 0 := by omega
    show c.val * 32 + g.val = (c.val * 32 + g.val) * 1 + u.val
    omega)

/-- [256, 32, 1] spread along its last axis to [256, 32, 128]: entry `(c, g, l)` is entry `(c, g, 0)`. -/
theorem spread_apply (v : (⟨3, ![256, 32, 1]⟩ : Shape).Idx → α)
    (h : (⟨3, ![256, 32, 1]⟩ : Shape).Broadcasts ⟨3, ![256, 32, 128]⟩) (c : Fin 256) (g : Fin 32) (l : Fin 128) :
    broadcastTo ⟨3, ![256, 32, 128]⟩ v h (ix3 c g l) = v (ix3 c g (0 : Fin 1)) := by
  refine broadcastTo_apply v h (ix3 c g l) (ix3 c g (0 : Fin 1)) fun a => ?_
  match a with
  | ⟨0, _⟩ => show c.val = if (256 : Nat) = 1 then 0 else c.val; rw [if_neg (by decide)]
  | ⟨1, _⟩ => show g.val = if (32 : Nat) = 1 then 0 else g.val; rw [if_neg (by decide)]
  | ⟨2, _⟩ => show 0 = if (1 : Nat) = 1 then 0 else l.val; rw [if_pos rfl]

end Cert.QLinear

end
-- ==== Proof.Tile.lean ====
/-
  What one grid point computes, entry by entry.

  The body holds a [512, 4096] tile of rows, and for a [256]-wide tile of output features their codes, scales, zero
  points and bias.  It rebuilds the [256, 4096] weight tile (codes and zero points read as reals, the zero point and the
  scale of a feature's group spread over the group's 128 features), multiplies rows by weights contracting the 4096
  features into a zero accumulator, and adds the bias along rows.  At the extended reals the two roundings to a
  narrower float format are the identity and the accumulated product is the plain sum, so entry `(p, c)` of the stored
  tile is `Σ_k x[p, k] · weight[c, k] + bias[c]` of the loaded blocks: the layer's formula over the tiles.
-/
import proofs.«136337_j15865609192074_1_alg».proof.Proof.Gen.KernelIdeal.Skeleton
import proofs.«136337_j15865609192074_1_alg».proof.Proof.Layout
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.QLinear

open Cert.KernelIdeal Cert.KernelIdeal.Gen

/-- The body's contraction: rows [512, 4096] against weights [256, 4096] over the feature axis of each. -/
abbrev tileDot : DotDims S512x4096 S256x4096 S512x256 := dot_S512x4096_S256x4096_S512x256_1_1_0_0_n_n

theorem tileDot_lhs0 (i : S512x256.Idx) (κ : tileDot.contr.Idx) : (tileDot.lhsIdx i κ 0).val = (i 0).val := by
  unfold DotDims.lhsIdx
  rw [dif_neg (show ¬(0 : Fin S512x4096.rank) ∈ tileDot.lhsBatch by decide),
    dif_pos (show (0 : Fin S512x4096.rank) ∈ tileDot.lhsNonContracting by decide)]
  rfl
theorem tileDot_lhs1 (i : S512x256.Idx) (κ : tileDot.contr.Idx) : (tileDot.lhsIdx i κ 1).val = (κ ⟨0, by decide⟩).val :=
  tileDot.lhsIdx_val_of_single rfl i κ
theorem tileDot_rhs0 (i : S512x256.Idx) (κ : tileDot.contr.Idx) : (tileDot.rhsIdx i κ 0).val = (i 1).val := by
  unfold DotDims.rhsIdx
  rw [dif_neg (show ¬(0 : Fin S256x4096.rank) ∈ tileDot.rhsBatch by decide),
    dif_pos (show (0 : Fin S256x4096.rank) ∈ tileDot.rhsNonContracting by decide)]
  rfl
theorem tileDot_rhs1 (i : S512x256.Idx) (κ : tileDot.contr.Idx) : (tileDot.rhsIdx i κ 1).val = (κ ⟨0, by decide⟩).val :=
  tileDot.rhsIdx_val_of_single rfl i κ

/-- The product into a zero accumulator, at `(p, c)`: row `p` against weight row `c`, summed over the features. -/
theorem matmul_tile (A : FVec Ideal S512x4096 .bf16) (B : FVec Ideal S256x4096 .bf16) (p : Fin 512) (c : Fin 256) :
    matmul tileDot none A B (constant (F := Ideal) S512x256 .f32 0x00000000#32) (ix2 p c)
      = ∑ k : Fin 4096, A (ix2 p k) * B (ix2 c k) := by
  simp only [matmul]
  rw [Ideal.matmul_constant_zero_apply, ← Equiv.sum_comp (contrEquiv1 tileDot 4096 rfl rfl).symm]
  refine Finset.sum_congr rfl fun k _ => ?_
  have hk := contrEquiv1_symm_val tileDot 4096 rfl rfl k
  have el : tileDot.lhsIdx (ix2 p c) ((contrEquiv1 tileDot 4096 rfl rfl).symm k) = ix2 p k := funext fun a => Fin.ext (by
    match a with
    | ⟨0, _⟩ => exact tileDot_lhs0 _ _
    | ⟨1, _⟩ => exact (tileDot_lhs1 _ _).trans hk)
  have er : tileDot.rhsIdx (ix2 p c) ((contrEquiv1 tileDot 4096 rfl rfl).symm k) = ix2 c k := funext fun a => Fin.ext (by
    match a with
    | ⟨0, _⟩ => exact tileDot_rhs0 _ _
    | ⟨1, _⟩ => exact (tileDot_rhs1 _ _).trans hk)
  rw [el, er]

/-- The rebuilt weight tile at `(c, k)`: the scale of `k`'s group times (code − the group's zero point). -/
theorem weight_tile (X1 : Vec Ideal S256x4096 .i32) (X2 : Vec Ideal S256x32 .f32) (X3 : Vec Ideal S256x32 .i32)
    (h1 : S256x32x128.ShapeCasts S256x4096) (h2 : S256x32x1.Broadcasts S256x32x128)
    (h3 : S256x32.ShapeCasts S256x32x1) (h4 : S256x4096.ShapeCasts S256x32x128) (c : Fin 256) (k : Fin 4096) :
    (shapeCast S256x4096 (mulf (broadcastTo S256x32x128 (shapeCast S256x32x1 X2 h3) h2)
        (subf (shapeCast S256x32x128 (sitofp .f32 X1 : FVec Ideal S256x4096 .f32) h4)
          (broadcastTo S256x32x128 (shapeCast S256x32x1 (sitofp .f32 X3 : FVec Ideal S256x32 .f32) h3) h2))) h1
        : FVec Ideal S256x4096 .f32) (ix2 c k)
      = deq (X2 (ix2 c (grp k))) (X1 (ix2 c k)) (X3 (ix2 c (grp k))) := by
  rw [flatten_apply, mulf_apply, subf_apply, spread_apply, spread_apply, addUnit_apply, addUnit_apply, split_apply, grp_lane]
  rfl

/-- THE TILE: the body's stored value at `(p, c)` is the layer's formula over the loaded blocks. -/
theorem tile_apply (X0 : Vec Ideal S512x4096 .f32) (X1 : Vec Ideal S256x4096 .i32) (X2 : Vec Ideal S256x32 .f32)
    (X3 : Vec Ideal S256x32 .i32) (X4 : Vec Ideal S256 .f32) (p : Fin 512) (c : Fin 256) :
    k0_pay1 X0 X1 X2 X3 X4 (ix2 p c) = rowAt X0 X2 X4 X1 X3 p c := by
  unfold k0_pay1
  rw [addf_apply, matmul_tile, broadcastTo_1b_ab_apply, shapeCast_a_1a_apply]
  unfold rowAt
  congr 1
  refine Finset.sum_congr rfl fun k _ => ?_
  rw [truncf_apply, truncf_apply, shapeCast_self, weight_tile]

end Cert.QLinear

end
-- ==== Proof.Grid.lean ====
/-
  From tiles to the whole [8192, 11008] product.

  The grid has 16 × 43 points in row-major order: point `t` handles row tile `t / 43` (512 rows) and output-feature
  tile `t % 43` (256 features).  Its row block is rows `512 · (t / 43) …` of the row matrix, all 4096 features; its
  code, scale, zero-point and bias blocks are output features `256 · (t % 43) …`; and it writes back the block at
  (row tile, feature tile) of the result.  With the tile's value from the body, what point `t` writes back is block `t`
  of ONE array — the layer's formula over the whole arrays — and since every entry `(r, o)` lies in the block of point
  `43 · (r / 512) + o / 256`, the result array ends holding that array.
-/
import proofs.«136337_j15865609192074_1_alg».proof.Proof.Gen.KernelIdeal.Frame
import proofs.«136337_j15865609192074_1_alg».proof.Proof.Tile
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.QLinear

open Cert.KernelIdeal Cert.KernelIdeal.Gen

variable (m : (ℓ : Loc nD τ sig) → Buf (Elt Ideal) ℓ)

theorem zero2 : (![0, 0] : Fin 2 → Nat) = fun _ => 0 := funext fun a => by fin_cases a <;> rfl
theorem zero1 : (![0] : Fin 1 → Nat) = fun _ => 0 := funext fun a => by fin_cases a <;> rfl

/-- The grid in row-major order, decided over its 688 points: the block each window is on at point `t`. -/
theorem block_of_point : ∀ t : Fin cfg0.N,
    win0_5.index t (0 : Fin 2) = t.val / 43 ∧ win0_5.index t (1 : Fin 2) = t.val % 43
    ∧ win0_0.index t (0 : Fin 2) = t.val / 43 ∧ win0_0.index t (1 : Fin 2) = 0
    ∧ win0_1.index t (0 : Fin 2) = t.val % 43 ∧ win0_1.index t (1 : Fin 2) = 0
    ∧ win0_2.index t (0 : Fin 2) = t.val % 43 ∧ win0_2.index t (1 : Fin 2) = 0
    ∧ win0_3.index t (0 : Fin 2) = t.val % 43 ∧ win0_3.index t (1 : Fin 2) = 0
    ∧ win0_4.index t (0 : Fin 1) = t.val % 43 :=
  (by decide +kernel : ∀ t : Fin grid0.N, _)

theorem point_lt (t : Fin cfg0.N) : t.val < 688 := Nat.lt_of_lt_of_eq t.isLt N_0

/-- The whole product over the arrays as the region finds them: rows of the row matrix against all output features. -/
abbrev whole (c : Dev nD) : S8192x11008.Idx → EReal :=
  rows (V m c main_v0 : S8192x4096.Idx → EReal) (V m c main_arg1 : S11008x32.Idx → EReal) (V m c main_arg2 : S11008.Idx → EReal)
    (V m c main_arg3 : S11008x4096.Idx → BitVec 32) (V m c main_arg4 : S11008x32.Idx → BitVec 32)

/-- The formula at `(r, o)` reads row `r` of the rows and row `o` of the codes, scales, zero points and bias, and nothing
    else: two families of arrays that agree there give the same entry. -/
theorem rowAt_congr {R O R' O' : Nat}
    (x : (⟨2, ![R, 4096]⟩ : Shape).Idx → EReal) (sc : (⟨2, ![O, 32]⟩ : Shape).Idx → EReal) (bias : (⟨1, ![O]⟩ : Shape).Idx → EReal)
    (q : (⟨2, ![O, 4096]⟩ : Shape).Idx → BitVec 32) (z : (⟨2, ![O, 32]⟩ : Shape).Idx → BitVec 32)
    (x' : (⟨2, ![R', 4096]⟩ : Shape).Idx → EReal) (sc' : (⟨2, ![O', 32]⟩ : Shape).Idx → EReal) (bias' : (⟨1, ![O']⟩ : Shape).Idx → EReal)
    (q' : (⟨2, ![O', 4096]⟩ : Shape).Idx → BitVec 32) (z' : (⟨2, ![O', 32]⟩ : Shape).Idx → BitVec 32)
    (r : Fin R) (o : Fin O) (r' : Fin R') (o' : Fin O')
    (hx : ∀ k : Fin 4096, x (ix2 r k) = x' (ix2 r' k)) (hq : ∀ k : Fin 4096, q (ix2 o k) = q' (ix2 o' k))
    (hs : ∀ g : Fin 32, sc (ix2 o g) = sc' (ix2 o' g)) (hz : ∀ g : Fin 32, z (ix2 o g) = z' (ix2 o' g))
    (hb : bias (ix1 o) = bias' (ix1 o')) :
    rowAt x sc bias q z r o = rowAt x' sc' bias' q' z' r' o' := by
  unfold rowAt
  rw [hb]
  exact congrArg (· + bias' (ix1 o')) (Finset.sum_congr rfl fun k _ => by rw [hx k, hq k, hs (grp k), hz (grp k)])

/-! ## Each window's block at a point, read off its array -/

/-- The row block: rows `512 · (t / 43) + p`. -/
theorem rows_block (c : Dev nD) (t : Fin cfg0.N) (p : Fin 512) (k : Fin 4096) (r : Fin 8192) (hr : r.val = t.val / 43 * 512 + p.val) :
    (iblk m c 0 t : Vec Ideal S512x4096 .f32) (ix2 p k) = (V m c main_v0 : S8192x4096.Idx → EReal) (ix2 r k) := by
  obtain ⟨-, -, e0, e1, -⟩ := block_of_point t
  show V m c main_v0 (((cfg0.win 0).blk t).view.emb (ix2 p k)) = V m c main_v0 (ix2 r k)
  refine congrArg (V m c main_v0) (funext fun a => Fin.ext ?_)
  match a with
  | ⟨0, _⟩ => show win0_0.index t (0 : Fin 2) * 512 + 1 * p.val = r.val; rw [e0, hr]; omega
  | ⟨1, _⟩ => show win0_0.index t (1 : Fin 2) * 4096 + 1 * k.val = k.val; rw [e1]; omega

/-- The code block: output features `256 · (t % 43) + q`. -/
theorem codes_block (c : Dev nD) (t : Fin cfg0.N) (q : Fin 256) (k : Fin 4096) (o : Fin 11008) (ho : o.val = t.val % 43 * 256 + q.val) :
    (iblk m c 1 t : Vec Ideal S256x4096 .i32) (ix2 q k) = (V m c main_arg3 : S11008x4096.Idx → BitVec 32) (ix2 o k) := by
  obtain ⟨-, -, -, -, e0, e1, -⟩ := block_of_point t
  show V m c main_arg3 (((cfg0.win 1).blk t).view.emb (ix2 q k)) = V m c main_arg3 (ix2 o k)
  refine congrArg (V m c main_arg3) (funext fun a => Fin.ext ?_)
  match a with
  | ⟨0, _⟩ => show win0_1.index t (0 : Fin 2) * 256 + 1 * q.val = o.val; rw [e0, ho]; omega
  | ⟨1, _⟩ => show win0_1.index t (1 : Fin 2) * 4096 + 1 * k.val = k.val; rw [e1]; omega

/-- The scale block. -/
theorem scales_block (c : Dev nD) (t : Fin cfg0.N) (q : Fin 256) (g : Fin 32) (o : Fin 11008) (ho : o.val = t.val % 43 * 256 + q.val) :
    (iblk m c 2 t : Vec Ideal S256x32 .f32) (ix2 q g) = (V m c main_arg1 : S11008x32.Idx → EReal) (ix2 o g) := by
  obtain ⟨-, -, -, -, -, -, e0, e1, -⟩ := block_of_point t
  show V m c main_arg1 (((cfg0.win 2).blk t).view.emb (ix2 q g)) = V m c main_arg1 (ix2 o g)
  refine congrArg (V m c main_arg1) (funext fun a => Fin.ext ?_)
  match a with
  | ⟨0, _⟩ => show win0_2.index t (0 : Fin 2) * 256 + 1 * q.val = o.val; rw [e0, ho]; omega
  | ⟨1, _⟩ => show win0_2.index t (1 : Fin 2) * 32 + 1 * g.val = g.val; rw [e1]; omega

/-- The zero-point block. -/
theorem zeros_block (c : Dev nD) (t : Fin cfg0.N) (q : Fin 256) (g : Fin 32) (o : Fin 11008) (ho : o.val = t.val % 43 * 256 + q.val) :
    (iblk m c 3 t : Vec Ideal S256x32 .i32) (ix2 q g) = (V m c main_arg4 : S11008x32.Idx → BitVec 32) (ix2 o g) := by
  obtain ⟨-, -, -, -, -, -, -, -, e0, e1, -⟩ := block_of_point t
  show V m c main_arg4 (((cfg0.win 3).blk t).view.emb (ix2 q g)) = V m c main_arg4 (ix2 o g)
  refine congrArg (V m c main_arg4) (funext fun a => Fin.ext ?_)
  match a with
  | ⟨0, _⟩ => show win0_3.index t (0 : Fin 2) * 256 + 1 * q.val = o.val; rw [e0, ho]; omega
  | ⟨1, _⟩ => show win0_3.index t (1 : Fin 2) * 32 + 1 * g.val = g.val; rw [e1]; omega

/-- The bias block. -/
theorem bias_block (c : Dev nD) (t : Fin cfg0.N) (q : Fin 256) (o : Fin 11008) (ho : o.val = t.val % 43 * 256 + q.val) :
    (iblk m c 4 t : Vec Ideal S256 .f32) (ix1 q) = (V m c main_arg2 : S11008.Idx → EReal) (ix1 o) := by
  obtain ⟨-, -, -, -, -, -, -, -, -, -, e0⟩ := block_of_point t
  show V m c main_arg2 (((cfg0.win 4).blk t).view.emb (ix1 q)) = V m c main_arg2 (ix1 o)
  refine congrArg (V m c main_arg2) (funext fun a => Fin.ext ?_)
  match a with
  | ⟨0, _⟩ => show win0_4.index t (0 : Fin 1) * 256 + 1 * q.val = o.val; rw [e0, ho]; omega

/-- Where entry `(p, q)` of point `t`'s output block sits in the result array. -/
theorem out_block_pos (t : Fin cfg0.N) (p : Fin 512) (q : Fin 256) (r : Fin 8192) (o : Fin 11008)
    (hr : r.val = t.val / 43 * 512 + p.val) (ho : o.val = t.val % 43 * 256 + q.val) :
    (((cfg0.win 5).blk t).view.emb (ix2 p q) : S8192x11008.Idx) = ix2 r o := by
  obtain ⟨e0, e1, -⟩ := block_of_point t
  funext a; apply Fin.ext
  match a with
  | ⟨0, _⟩ => show win0_5.index t (0 : Fin 2) * 512 + 1 * p.val = r.val; rw [e0, hr]; omega
  | ⟨1, _⟩ => show win0_5.index t (1 : Fin 2) * 256 + 1 * q.val = o.val; rw [e1, ho]; omega

/-! ## What a point writes back, and the array after the run -/

/-- WHAT POINT `t` WRITES BACK is block `t` of the whole product. -/
theorem flushed_eq (c : Dev nD) (t : Fin cfg0.N) :
    (dats m 0 c).flushed 5 t = ((cfg0.win 5).blk t).view.read (Elt Ideal) (whole m c) := by
  show (cfg0.win 5).cut (grid0.coords t) ((dats m 0 c).after 5 t) = _
  rw [after0_5]
  unfold out0_5
  rw [View.canon_unit_zero zero2]
  simp only [View.ld_unit_zero (S := S512x4096) zero2, View.ld_unit_zero (S := S256x4096) zero2,
    View.ld_unit_zero (S := S256x32) zero2, View.ld_unit_zero (S := S256) zero1]
  refine funext fun (j : S512x256.Idx) => ?_
  obtain ⟨p, q, rfl⟩ : ∃ (p : Fin 512) (q : Fin 256), j = ix2 p q := ⟨j 0, j 1, eq_ix2 j⟩
  show k0_pay1 (iblk m c 0 t) (iblk m c 1 t) (iblk m c 2 t) (iblk m c 3 t) (iblk m c 4 t) (ix2 p q)
    = whole m c (((cfg0.win 5).blk t).view.emb (ix2 p q))
  refine (tile_apply (iblk m c 0 t) (iblk m c 1 t) (iblk m c 2 t) (iblk m c 3 t) (iblk m c 4 t) p q).trans ?_
  obtain ⟨r, hr⟩ : ∃ r : Fin 8192, r.val = t.val / 43 * 512 + p.val :=
    ⟨⟨t.val / 43 * 512 + p.val, by have := point_lt t; have := p.isLt; omega⟩, rfl⟩
  obtain ⟨o, ho⟩ : ∃ o : Fin 11008, o.val = t.val % 43 * 256 + q.val :=
    ⟨⟨t.val % 43 * 256 + q.val, by have := q.isLt; omega⟩, rfl⟩
  rw [out_block_pos t p q r o hr ho]
  refine Eq.trans ?_ (rows_ix2 (V m c main_v0 : S8192x4096.Idx → EReal) (V m c main_arg1 : S11008x32.Idx → EReal)
    (V m c main_arg2 : S11008.Idx → EReal) (V m c main_arg3 : S11008x4096.Idx → BitVec 32)
    (V m c main_arg4 : S11008x32.Idx → BitVec 32) r o).symm
  exact rowAt_congr (R := 512) (O := 256) (R' := 8192) (O' := 11008)
    (iblk m c 0 t : Vec Ideal S512x4096 .f32) (iblk m c 2 t : Vec Ideal S256x32 .f32) (iblk m c 4 t : Vec Ideal S256 .f32)
    (iblk m c 1 t : Vec Ideal S256x4096 .i32) (iblk m c 3 t : Vec Ideal S256x32 .i32)
    (V m c main_v0 : S8192x4096.Idx → EReal) (V m c main_arg1 : S11008x32.Idx → EReal) (V m c main_arg2 : S11008.Idx → EReal)
    (V m c main_arg3 : S11008x4096.Idx → BitVec 32) (V m c main_arg4 : S11008x32.Idx → BitVec 32) p q r o
    (fun k => rows_block m c t p k r hr) (fun k => codes_block m c t q k o ho) (fun g => scales_block m c t q g o ho)
    (fun g => zeros_block m c t q g o ho) (bias_block m c t q o ho)

/-- An index of the result array is in point `t`'s block iff each coordinate is in the block's range on its axis. -/
theorem mem_block (t : Fin cfg0.N) (i : S8192x11008.Idx) :
    i ∈ ((cfg0.win 5).blk t).view.set ↔ ∀ a : Fin 2, win0_5.index t a * S512x256.size a ≤ (i a).val ∧ (i a).val < win0_5.index t a * S512x256.size a + S512x256.size a := by
  show i ∈ ((View.whole main_v1).slice (win0_5.rect t)).set ↔ _
  rw [View.set_slice_whole, Rect.mem_set_unit]
  exact Iff.rfl

/-- Every entry `(r, o)` is written back by the point of row tile `r / 512` and feature tile `o / 256`. -/
theorem covered (i : S8192x11008.Idx) :
    ∃ t : Fin cfg0.N, (cfg0.win 5).flush t = true ∧ i ∈ ((cfg0.win 5).blk t).view.set := by
  have h0 : (i 0).val < 8192 := (i 0).isLt
  have h1 : (i 1).val < 11008 := (i 1).isLt
  have hlt : (i 0).val / 512 * 43 + (i 1).val / 256 < cfg0.N := by rw [show cfg0.N = 688 from N_0]; omega
  obtain ⟨e0, e1, -⟩ := block_of_point ⟨(i 0).val / 512 * 43 + (i 1).val / 256, hlt⟩
  refine ⟨⟨(i 0).val / 512 * 43 + (i 1).val / 256, hlt⟩, flush0_5 _, ?_⟩
  rw [mem_block]
  intro a
  match a with
  | ⟨0, _⟩ =>
    show win0_5.index ⟨(i 0).val / 512 * 43 + (i 1).val / 256, hlt⟩ (0 : Fin 2) * 512 ≤ (i 0).val
      ∧ (i 0).val < win0_5.index ⟨(i 0).val / 512 * 43 + (i 1).val / 256, hlt⟩ (0 : Fin 2) * 512 + 512
    rw [e0]
    show ((i 0).val / 512 * 43 + (i 1).val / 256) / 43 * 512 ≤ (i 0).val ∧ (i 0).val < ((i 0).val / 512 * 43 + (i 1).val / 256) / 43 * 512 + 512
    omega
  | ⟨1, _⟩ =>
    show win0_5.index ⟨(i 0).val / 512 * 43 + (i 1).val / 256, hlt⟩ (1 : Fin 2) * 256 ≤ (i 1).val
      ∧ (i 1).val < win0_5.index ⟨(i 0).val / 512 * 43 + (i 1).val / 256, hlt⟩ (1 : Fin 2) * 256 + 256
    rw [e1]
    show ((i 0).val / 512 * 43 + (i 1).val / 256) % 43 * 256 ≤ (i 1).val ∧ (i 1).val < ((i 0).val / 512 * 43 + (i 1).val / 256) % 43 * 256 + 256
    omega

/-- THE RESULT ARRAY of the region after the run is the whole product. -/
theorem final (c : Dev nD) : (dats m 0 c).arrAt 5 cfg0.N = whole m c :=
  (dats m 0 c).arrAt_eq_of_cover 5 (whole m c) (fun t _ => flushed_eq m c t) covered

end Cert.QLinear

end
-- ==== Proof.Whole.lean ====
/-
  The kernel's program, whole: batch in, batch out.

  Before the region the [4, 2048, 4096] batch is laid out as the [8192, 4096] row matrix, row `2048 · b + s` being row
  `(b, s)` of the batch; after it the [8192, 11008] product is laid out as [4, 2048, 11008] the same way.  Neither
  changes a value, so entry `(b, s, o)` of the program's result is entry `(2048 · b + s, o)` of the product over the
  row matrix: `Σ_k x[b, s, k] · weight[o, k] + bias[o]`, the layer's formula of the five arguments.
-/
import proofs.«136337_j15865609192074_1_alg».proof.Proof.Grid
import Idealize.ShloMosaic.Lib.StableHlo.Run
import Idealize.ShloMosaic.Lib.Pipeline.Value
import Idealize.ShloMosaic.Lib.ValueIdx

noncomputable section

open Idealize.ShloMosaic Idealize.ShloMosaic.TcCoe Idealize.SL.Sem Idealize.ShloMosaic.ValueIdx Idealize.ShloMosaic.StableHlo
open Idealize.ShloMosaic.Pipeline (Dat)

namespace Cert.QLinear

open Cert.KernelIdeal Cert.KernelIdeal.Gen

variable (m : (ℓ : Loc nD τ sig) → Buf (Elt Ideal) ℓ) (ρ : Dev nD → PrngReg)

/-- The batch laid out as rows: row `2048 · b + s`, feature `k`, is entry `(b, s, k)`. -/
theorem batch_as_rows {α : Type} (v : (⟨3, ![4, 2048, 4096]⟩ : Shape).Idx → α)
    (h : (⟨3, ![4, 2048, 4096]⟩ : Shape).ShapeCasts ⟨2, ![8192, 4096]⟩) (b : Fin 4) (s : Fin 2048) (k : Fin 4096)
    (r : Fin 8192) (hr : r.val = b.val * 2048 + s.val) :
    shapeCast ⟨2, ![8192, 4096]⟩ v h (ix2 r k) = v (ix3 b s k) :=
  shapeCast_apply v h _ _ (by
    rw [Shape.rowMajor_val_three, Shape.rowMajor_val_two]
    show (b.val * 2048 + s.val) * 4096 + k.val = r.val * 4096 + k.val
    rw [hr])

/-- The product laid out as a batch: entry `(b, s, o)` is row `2048 · b + s`, output feature `o`. -/
theorem rows_as_batch {α : Type} (v : (⟨2, ![8192, 11008]⟩ : Shape).Idx → α)
    (h : (⟨2, ![8192, 11008]⟩ : Shape).ShapeCasts ⟨3, ![4, 2048, 11008]⟩) (b : Fin 4) (s : Fin 2048) (o : Fin 11008)
    (r : Fin 8192) (hr : r.val = b.val * 2048 + s.val) :
    shapeCast ⟨3, ![4, 2048, 11008]⟩ v h (ix3 b s o) = v (ix2 r o) :=
  shapeCast_apply v h _ _ (by
    rw [Shape.rowMajor_val_two, Shape.rowMajor_val_three]
    show r.val * 11008 + o.val = (b.val * 2048 + s.val) * 11008 + o.val
    rw [hr])

/-- The row matrix the region finds is the batch argument laid out as rows. -/
theorem row_matrix (c : Dev nD) :
    (V m c main_v0 : S8192x4096.Idx → EReal)
      = shapeCast S8192x4096 (m ((c : Thread nD τ).loc main_arg0) : S4x2048x4096.Idx → EReal) shapeCasts_S4x2048x4096_S8192x4096 := by
  show StableHlo.after hostOps0 (fun b => m (c, b)) (Proc.devRef .tc main_v0) = _
  after_results
  rfl

/-- The program's result buffer after the run: the region's product laid out as a batch. -/
theorem tail_value (c : Dev nD) :
    (Pipeline.afterTail₀ cfgs (dats m) 0 (V0 m) [hostOps1] c main_v2 : S4x2048x11008.Idx → EReal)
      = shapeCast S4x2048x11008 (whole m c) shapeCasts_S8192x11008_S4x2048x11008 := by
  unfold Pipeline.afterTail₀
  show StableHlo.after hostOps1 _ (Proc.devRef .tc main_v2) = _
  after_results
  exact congrArg (fun a => shapeCast S4x2048x11008 a shapeCasts_S8192x11008_S4x2048x11008)
    ((Pipeline.withArrays_arr spec0 launch0.win.arr_inj c _ _ 5).trans (final m c))

/-- THE RESULT of the program is the layer's formula of its five arguments. -/
theorem result (c : Dev nD) :
    (Pipeline.afterTail₀ cfgs (dats m) 0 (V0 m) [hostOps1] c main_v2 : S4x2048x11008.Idx → EReal)
      = out (m ((c : Thread nD τ).loc main_arg0)) (m ((c : Thread nD τ).loc main_arg1)) (m ((c : Thread nD τ).loc main_arg2))
          (m ((c : Thread nD τ).loc main_arg3)) (m ((c : Thread nD τ).loc main_arg4)) := by
  rw [tail_value]
  funext i
  obtain ⟨b, s, o, rfl⟩ : ∃ (b : Fin 4) (s : Fin 2048) (o : Fin 11008), i = ix3 b s o := ⟨i 0, i 1, i 2, eq_ix3 i⟩
  obtain ⟨r, hr⟩ : ∃ r : Fin 8192, r.val = b.val * 2048 + s.val :=
    ⟨⟨b.val * 2048 + s.val, by have := b.isLt; have := s.isLt; omega⟩, rfl⟩
  rw [rows_as_batch _ _ b s o r hr, out_ix3]
  unfold whole
  rw [rows_ix2, V_main_arg1, V_main_arg2, V_main_arg3, V_main_arg4]
  exact outAt_eq_rowAt _ _ _ _ _ _ b s o r fun k => by rw [row_matrix, batch_as_rows _ _ b s k r hr]

/-- THE RUN, READ: every weakly fair execution ends with the result buffer at the layer's formula of the arguments, and
    the arguments unchanged. -/
theorem run : θ_run defs (onTc (τ := τ) (main (F := Ideal))) ⟨m, fun _ => 0, ρ⟩ fun r => ∀ c : Dev nD,
      r.2.mem ((c.tc : Thread nD τ).loc main_v2)
        = out (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v2 (Pipeline.mem_restRefs_of main_v2 (by decide) (by decide))).trans (result m c),
      ((h c).2 main_arg0 (Pipeline.mem_restRefs_of main_arg0 (by decide) (by decide))).trans (W_main_arg0 m (dats m) c),
      ((h c).1 2).trans (((dats m 0 c).arrAt_in 2 rfl _).trans ((A_eq m c 2).trans (V_main_arg1 m c))),
      ((h c).1 4).trans (((dats m 0 c).arrAt_in 4 rfl _).trans ((A_eq m c 4).trans (V_main_arg2 m c))),
      ((h c).1 1).trans (((dats m 0 c).arrAt_in 1 rfl _).trans ((A_eq m c 1).trans (V_main_arg3 m c))),
      ((h c).1 3).trans (((dats m 0 c).arrAt_in 3 rfl _).trans ((A_eq m c 3).trans (V_main_arg4 m c)))⟩)
    (run_main m ρ)

end Cert.QLinear

end
-- ==== Proof.RefValue.lean ====
/-
  The reference computes the layer's formula.

  It rebuilds the whole [11008, 4096] weight matrix the same way (codes viewed [11008, 32, 128], the zero points and
  scales of a group spread over its 128 features, then flattened back), contracts the batch's feature axis against it,
  and adds the bias along the last axis.  Read at `(b, s, o)` through the generated one-operation-at-a-time lemmas, that
  is `Σ_k x[b, s, k] · weight[o, k] + bias[o]`; the only arithmetic is that feature `k` of row `o` sits at
  `(o, k / 128, k % 128)` of the grouped view and comes back to `(o, k)`.
-/
import proofs.«136337_j15865609192074_1_alg».proof.Proof.Gen.ReferenceIdeal.Read
import proofs.«136337_j15865609192074_1_alg».proof.Proof.Spec
import Idealize.ShloMosaic.Lib.ValueIdx

noncomputable section

open Idealize.ShloMosaic Idealize.ShloMosaic.ValueIdx

namespace Cert.QLinear.Ref

open Cert.ReferenceIdeal Cert.ReferenceIdeal.Read Cert.QLinear

/-- The reference's weight matrix at `(o, k)`. -/
theorem weight_ref (x1 : (⟨S11008x32, .f32⟩ : BufTy).Contents (Elt Ideal)) (x3 : (⟨S11008x4096, .i32⟩ : BufTy).Contents (Elt Ideal))
    (x4 : (⟨S11008x32, .i32⟩ : BufTy).Contents (Elt Ideal)) (o : Fin 11008) (k : Fin 4096) :
    val_main_v9 (F := Ideal) x1 x3 x4 (ix2 o k) = deq (x1 (ix2 o (grp k))) (x3 (ix2 o k)) (x4 (ix2 o (grp k))) := by
  have ho := o.isLt
  have hk := k.isLt
  rw [val_main_v9_apply, val_main_v8_apply, val_main_v7_apply, val_main_v4_apply, val_main_v6_apply, val_main_v1_apply,
    val_main_v0_apply, val_main_v5_apply, val_main_v3_apply, val_main_v2_apply]
  have e1 : idx_main_v4 (idx_main_v7 (idx_main_v9 (ix2 o k))) = ix2 o (grp k) := funext fun a => Fin.ext (by
    match a with
    | ⟨0, _⟩ => show (o.val * 4096 + k.val) / 4096 = o.val; omega
    | ⟨1, _⟩ => show (o.val * 4096 + k.val) / 128 % 32 = k.val / 128; omega)
  have e2 : idx_main_v0 (idx_main_v9 (ix2 o k)) = ix2 o k := funext fun a => Fin.ext (by
    match a with
    | ⟨0, _⟩ =>
      show (((o.val * 4096 + k.val) / 4096 * 32 + (o.val * 4096 + k.val) / 128 % 32) * 128 + (o.val * 4096 + k.val) % 128) / 4096 = o.val
      omega
    | ⟨1, _⟩ =>
      show (((o.val * 4096 + k.val) / 4096 * 32 + (o.val * 4096 + k.val) / 128 % 32) * 128 + (o.val * 4096 + k.val) % 128) % 4096 = k.val
      omega)
  have e3 : idx_main_v3 (idx_main_v5 (idx_main_v9 (ix2 o k))) = ix2 o (grp k) := funext fun a => Fin.ext (by
    match a with
    | ⟨0, _⟩ => show (o.val * 4096 + k.val) / 4096 = o.val; omega
    | ⟨1, _⟩ => show (o.val * 4096 + k.val) / 128 % 32 = k.val / 128; omega)
  rw [e1, e2, e3]
  rfl

/-- THE REFERENCE'S RESULT is the layer's formula of its five arguments. -/
theorem result_eq (x0 : (⟨S4x2048x4096, .f32⟩ : BufTy).Contents (Elt Ideal)) (x1 : (⟨S11008x32, .f32⟩ : BufTy).Contents (Elt Ideal))
    (x2 : (⟨S11008, .f32⟩ : BufTy).Contents (Elt Ideal)) (x3 : (⟨S11008x4096, .i32⟩ : BufTy).Contents (Elt Ideal))
    (x4 : (⟨S11008x32, .i32⟩ : BufTy).Contents (Elt Ideal)) :
    val_main_v13 (F := Ideal) x0 x1 x2 x3 x4 = out x0 x1 x2 x3 x4 := by
  funext i
  obtain ⟨b, s, o, rfl⟩ : ∃ (b : Fin 4) (s : Fin 2048) (o : Fin 11008), i = ix3 b s o := ⟨i 0, i 1, i 2, eq_ix3 i⟩
  rw [out_ix3, val_main_v13_apply, val_main_v10_apply, val_main_v12_apply, val_main_v11_apply]
  unfold outAt
  have eb : idx_main_v11 (idx_main_v12 (ix3 b s o)) = ix1 o := funext fun a => Fin.ext (by
    match a with
    | ⟨0, _⟩ => rfl)
  rw [eb]
  show (∑ k : Fin 4096, _) + _ = _
  congr 1
  refine Finset.sum_congr rfl fun k _ => ?_
  have el : lidx_main_v10 (ix3 b s o) k = ix3 b s k := funext fun a => Fin.ext (by
    match a with
    | ⟨0, _⟩ => rfl
    | ⟨1, _⟩ => rfl
    | ⟨2, _⟩ => rfl)
  have er : ridx_main_v10 (ix3 b s o) k = ix2 o k := funext fun a => Fin.ext (by
    match a with
    | ⟨0, _⟩ => rfl
    | ⟨1, _⟩ => rfl)
  rw [el, er, weight_ref]

end Cert.QLinear.Ref

end
-- ==== Proof.lean ====
/-
  A 4-bit-style quantized linear layer: `y = x · dequant(q, scales, zeros)ᵀ + bias` on x : [4, 2048, 4096],
  11008 output features, 32 quantization groups of 128 input features each.

  Both programs compute, at every `(b, s, o)`,
      Σ_k x[b, s, k] · ( scales[o, k / 128] · (q[o, k] − zeros[o, k / 128]) ) + bias[o],
  the integers read as reals.  The kernel lays the batch out as 8192 rows, tiles rows by 512 and output features by
  256 over a 16 × 43 grid, rebuilds each weight tile, multiplies into a zero accumulator and adds the bias; the
  reference rebuilds the whole weight matrix and contracts once.  Over the extended reals a change of float format is
  the identity and an accumulated product is a plain sum, so the two differ only in how the same sum is laid out:
  no law beyond the re-indexing of a finite sum is used, and the finiteness of the inputs is never needed.

  The modules: Spec (the formula), Layout and Tile (one grid point's value), Grid (tiles to the whole product),
  Whole (the two re-layings around the region, and the kernel's run), RefValue (the reference is the formula).
  Nothing is rewritten by the idealization, so the kernel and its idealization are one text.
-/
import proofs.«136337_j15865609192074_1_alg».proof.Defs
import proofs.«136337_j15865609192074_1_alg».proof.Proof.Gen.Kernel
import proofs.«136337_j15865609192074_1_alg».proof.Proof.Gen.Kernel.Skeleton
import proofs.«136337_j15865609192074_1_alg».proof.Proof.Gen.Kernel.Launch
import proofs.«136337_j15865609192074_1_alg».proof.Proof.Gen.Kernel.Points
import proofs.«136337_j15865609192074_1_alg».proof.Proof.Gen.Kernel.Frame
import proofs.«136337_j15865609192074_1_alg».proof.Proof.Gen.KernelIdeal
import proofs.«136337_j15865609192074_1_alg».proof.Proof.Gen.KernelIdeal.Skeleton
import proofs.«136337_j15865609192074_1_alg».proof.Proof.Gen.KernelIdeal.Launch
import proofs.«136337_j15865609192074_1_alg».proof.Proof.Gen.KernelIdeal.Points
import proofs.«136337_j15865609192074_1_alg».proof.Proof.Gen.KernelIdeal.Frame
import proofs.«136337_j15865609192074_1_alg».proof.Proof.Gen.ReferenceIdeal
import proofs.«136337_j15865609192074_1_alg».proof.Proof.Gen.Pre_finite_inputs
import proofs.«136337_j15865609192074_1_alg».proof.Proof.Gen.ReferenceIdeal.Run
import proofs.«136337_j15865609192074_1_alg».proof.Proof.Gen.ReferenceIdeal.Read
import proofs.«136337_j15865609192074_1_alg».proof.Proof.Whole
import proofs.«136337_j15865609192074_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs, faults nowhere and leaves its arguments as they were. -/
theorem frame_kernel : Cert.frame_Kernel := fun m ρ _ => Cert.Kernel.Gen.frame m ρ

/-- So does its reading over the extended reals. -/
theorem frame_ideal : Cert.frame_KernelIdeal := fun m ρ _ => Cert.KernelIdeal.Gen.frame m ρ

/-- And the reference: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the five arguments both programs end with the layer's formula of those arguments in
    their result buffers: the kernel by its run read tile by tile, the reference by its run read operation by operation. -/
theorem algebraic : Cert.algebraic_KernelIdeal_ReferenceIdeal := by
  intro m ρ m' ρ' _ hagree
  refine ⟨_, Cert.QLinear.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.QLinear.Ref.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
